-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x216 : Shape := ⟨2, ![16384, 216]⟩
abbrev S16x1000000x1 : Shape := ⟨3, ![16, 1000000, 1]⟩
abbrev S4x1000000x1 : Shape := ⟨3, ![4, 1000000, 1]⟩
abbrev S_ : Shape := ⟨0, ![]⟩

class Facts : Prop where
  bcast_S_S16x1000000x1 : S_.BroadcastsInDim S16x1000000x1 (![] : Fin 0 → Fin S16x1000000x1.rank)
  reducesTo_S16x1000000x1_S_d0_1_2 : S16x1000000x1.ReducesTo [0, 1, 2] S_
  h_S_ : 0 < S_.numel
  bcast_S_S4x1000000x1 : S_.BroadcastsInDim S4x1000000x1 (![] : Fin 0 → Fin S4x1000000x1.rank)
  reducesTo_S4x1000000x1_S_d0_1_2 : S4x1000000x1.ReducesTo [0, 1, 2] S_

variable [Facts]

def fn {F : FTy → Type} [FloatOps F] (main_arg0 : IVec S16384x216 32) (main_arg1 : FVec F S16x1000000x1 .f32) (main_arg2 : FVec F S4x1000000x1 .f32) : IVec S_ 1 :=
  let main_v0 : FVec F S16x1000000x1 .f32 := Host.absf main_arg1
  let main_cst : FVec F S_ .f32 := constant S_ .f32 0x7F800000#32
  let main_v1 : FVec F S16x1000000x1 .f32 := broadcastInDim S16x1000000x1 ![] bcast_S_S16x1000000x1 main_cst
  let main_v2 : IVec S16x1000000x1 1 := cmpf .olt main_v0 main_v1
  let main_c : IVec S_ 1 := constantI S_ 1 1#1
  let main_v3 : IVec S_ 1 := (fun x v => Host.reduce IntOp.andi x v reducesTo_S16x1000000x1_S_d0_1_2 h_S_) main_v2 main_c
  let main_v4 : FVec F S4x1000000x1 .f32 := Host.absf main_arg2
  let main_cst_0 : FVec F S_ .f32 := constant S_ .f32 0x7F800000#32
  let main_v5 : FVec F S4x1000000x1 .f32 := broadcastInDim S4x1000000x1 ![] bcast_S_S4x1000000x1 main_cst_0
  let main_v6 : IVec S4x1000000x1 1 := cmpf .olt main_v4 main_v5
  let main_c_1 : IVec S_ 1 := constantI S_ 1 1#1
  let main_v7 : IVec S_ 1 := (fun x v => Host.reduce IntOp.andi x v reducesTo_S4x1000000x1_S_d0_1_2 h_S_) main_v6 main_c_1
  let main_v8 : IVec S_ 1 := andi main_v3 main_v7
  main_v8
-- ==== Kernel.lean ====
abbrev S16384x216 : Shape := ⟨2, ![16384, 216]⟩
abbrev S16x1000000x1 : Shape := ⟨3, ![16, 1000000, 1]⟩
abbrev S4x1000000x1 : Shape := ⟨3, ![4, 1000000, 1]⟩
abbrev S16384x16 : Shape := ⟨2, ![16384, 16]⟩
abbrev S16 : Shape := ⟨1, ![16]⟩
abbrev S1x16 : Shape := ⟨2, ![1, 16]⟩
abbrev S_ : Shape := ⟨0, ![]⟩
abbrev S16384x16x1 : Shape := ⟨3, ![16384, 16, 1]⟩
abbrev S16384x16x2 : Shape := ⟨3, ![16384, 16, 2]⟩
abbrev S16384x200 : Shape := ⟨2, ![16384, 200]⟩
abbrev S16384x4x50 : Shape := ⟨3, ![16384, 4, 50]⟩
abbrev S4 : Shape := ⟨1, ![4]⟩
abbrev S1x4x1 : Shape := ⟨3, ![1, 4, 1]⟩
abbrev S16384x4x50x1 : Shape := ⟨4, ![16384, 4, 50, 1]⟩
abbrev S16384x4x50x2 : Shape := ⟨4, ![16384, 4, 50, 2]⟩
abbrev S16384x4 : Shape := ⟨2, ![16384, 4]⟩
abbrev S16384x20 : Shape := ⟨2, ![16384, 20]⟩
abbrev S2048x16 : Shape := ⟨2, ![2048, 16]⟩
abbrev S2048x200 : Shape := ⟨2, ![2048, 200]⟩
abbrev S2048x4 : Shape := ⟨2, ![2048, 4]⟩
abbrev S2048x20 : Shape := ⟨2, ![2048, 20]⟩
abbrev S2048x50 : Shape := ⟨2, ![2048, 50]⟩
abbrev S2048 : Shape := ⟨1, ![2048]⟩
abbrev S2048x1 : Shape := ⟨2, ![2048, 1]⟩

abbrev nBuf : Space → Nat
  | .hbm => 59
  | .vmem => 8
  | .smem => 0
  | _ => 0

abbrev bufTy : (tb : Table) → Fin (tcTables nBuf tb) → BufTy
  | .hbm, ⟨0, _⟩ => ⟨S16384x216, .i32⟩
  | .hbm, ⟨1, _⟩ => ⟨S16x1000000x1, .f32⟩
  | .hbm, ⟨2, _⟩ => ⟨S4x1000000x1, .f32⟩
  | .hbm, ⟨3, _⟩ => ⟨S16384x16, .i32⟩
  | .hbm, ⟨4, _⟩ => ⟨S16, .i32⟩
  | .hbm, ⟨5, _⟩ => ⟨S1x16, .i32⟩
  | .hbm, ⟨6, _⟩ => ⟨S_, .i32⟩
  | .hbm, ⟨7, _⟩ => ⟨S1x16, .i32⟩
  | .hbm, ⟨8, _⟩ => ⟨S1x16, .i1⟩
  | .hbm, ⟨9, _⟩ => ⟨S_, .i32⟩
  | .hbm, ⟨10, _⟩ => ⟨S1x16, .i32⟩
  | .hbm, ⟨11, _⟩ => ⟨S1x16, .i32⟩
  | .hbm, ⟨12, _⟩ => ⟨S1x16, .i32⟩
  | .hbm, ⟨13, _⟩ => ⟨S_, .i32⟩
  | .hbm, ⟨14, _⟩ => ⟨S16384x16, .i32⟩
  | .hbm, ⟨15, _⟩ => ⟨S16384x16, .i1⟩
  | .hbm, ⟨16, _⟩ => ⟨S_, .i32⟩
  | .hbm, ⟨17, _⟩ => ⟨S16384x16, .i32⟩
  | .hbm, ⟨18, _⟩ => ⟨S16384x16, .i32⟩
  | .hbm, ⟨19, _⟩ => ⟨S16384x16, .i32⟩
  | .hbm, ⟨20, _⟩ => ⟨S16384x16, .i32⟩
  | .hbm, ⟨21, _⟩ => ⟨S16384x16x1, .i32⟩
  | .hbm, ⟨22, _⟩ => ⟨S16384x16x1, .i32⟩
  | .hbm, ⟨23, _⟩ => ⟨S16384x16x2, .i32⟩
  | .hbm, ⟨24, _⟩ => ⟨S16384x16x1, .f32⟩
  | .hbm, ⟨25, _⟩ => ⟨S16384x16, .f32⟩
  | .hbm, ⟨26, _⟩ => ⟨S16384x200, .i32⟩
  | .hbm, ⟨27, _⟩ => ⟨S16384x4x50, .i32⟩
  | .hbm, ⟨28, _⟩ => ⟨S4, .i32⟩
  | .hbm, ⟨29, _⟩ => ⟨S1x4x1, .i32⟩
  | .hbm, ⟨30, _⟩ => ⟨S_, .i32⟩
  | .hbm, ⟨31, _⟩ => ⟨S1x4x1, .i32⟩
  | .hbm, ⟨32, _⟩ => ⟨S1x4x1, .i1⟩
  | .hbm, ⟨33, _⟩ => ⟨S_, .i32⟩
  | .hbm, ⟨34, _⟩ => ⟨S1x4x1, .i32⟩
  | .hbm, ⟨35, _⟩ => ⟨S1x4x1, .i32⟩
  | .hbm, ⟨36, _⟩ => ⟨S1x4x1, .i32⟩
  | .hbm, ⟨37, _⟩ => ⟨S_, .i32⟩
  | .hbm, ⟨38, _⟩ => ⟨S16384x4x50, .i32⟩
  | .hbm, ⟨39, _⟩ => ⟨S16384x4x50, .i1⟩
  | .hbm, ⟨40, _⟩ => ⟨S_, .i32⟩
  | .hbm, ⟨41, _⟩ => ⟨S16384x4x50, .i32⟩
  | .hbm, ⟨42, _⟩ => ⟨S16384x4x50, .i32⟩
  | .hbm, ⟨43, _⟩ => ⟨S16384x4x50, .i32⟩
  | .hbm, ⟨44, _⟩ => ⟨S16384x4x50, .i32⟩
  | .hbm, ⟨45, _⟩ => ⟨S16384x4x50x1, .i32⟩
  | .hbm, ⟨46, _⟩ => ⟨S16384x4x50x1, .i32⟩
  | .hbm, ⟨47, _⟩ => ⟨S16384x4x50x2, .i32⟩
  | .hbm, ⟨48, _⟩ => ⟨S16384x4x50x1, .f32⟩
  | .hbm, ⟨49, _⟩ => ⟨S16384x4x50, .f32⟩
  | .hbm, ⟨50, _⟩ => ⟨S_, .i32⟩
  | .hbm, ⟨51, _⟩ => ⟨S16384x4x50, .i32⟩
  | .hbm, ⟨52, _⟩ => ⟨S16384x4x50, .i1⟩
  | .hbm, ⟨53, _⟩ => ⟨S16384x4x50, .f32⟩
  | .hbm, ⟨54, _⟩ => ⟨S16384x4x50, .f32⟩
  | .hbm, ⟨55, _⟩ => ⟨S16384x200, .f32⟩
  | .hbm, ⟨56, _⟩ => ⟨S_, .f32⟩
  | .hbm, ⟨57, _⟩ => ⟨S16384x4, .f32⟩
  | .hbm, ⟨58, _⟩ => ⟨S16384x20, .f32⟩
  | .local _ .vmem, ⟨0, _⟩ => ⟨S2048x16, .f32⟩
  | .local _ .vmem, ⟨1, _⟩ => ⟨S2048x16, .f32⟩
  | .local _ .vmem, ⟨2, _⟩ => ⟨S2048x200, .f32⟩
  | .local _ .vmem, ⟨3, _⟩ => ⟨S2048x200, .f32⟩
  | .local _ .vmem, ⟨4, _⟩ => ⟨S2048x4, .f32⟩
  | .local _ .vmem, ⟨5, _⟩ => ⟨S2048x4, .f32⟩
  | .local _ .vmem, ⟨6, _⟩ => ⟨S2048x20, .f32⟩
  | .local _ .vmem, ⟨7, _⟩ => ⟨S2048x20, .f32⟩
  | _, _ => ⟨S16384x216, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_3 : Ref sig .tc := ⟨.hbm, 30, rfl⟩
abbrev main_v23 : Ref sig .tc := ⟨.hbm, 31, rfl⟩
abbrev main_v24 : Ref sig .tc := ⟨.hbm, 32, rfl⟩
abbrev main_c_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c_5 : Ref sig .tc := ⟨.hbm, 37, rfl⟩
abbrev main_v28 : Ref sig .tc := ⟨.hbm, 38, rfl⟩
abbrev main_v29 : Ref sig .tc := ⟨.hbm, 39, rfl⟩
abbrev main_c_6 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_c_7 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst : Ref sig .tc := ⟨.hbm, 56, rfl⟩
abbrev main_v44 : Ref sig .tc := ⟨.hbm, 57, rfl⟩
abbrev main_v45 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x20 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S16384x216_S16384x16_0_0 : S16384x216.Slices ![0, 0] S16384x16
  bcast_S16_S1x16_1 : S16.BroadcastsInDim S1x16 (![1] : Fin 1 → Fin S1x16.rank)
  bcast_S_S1x16 : S_.BroadcastsInDim S1x16 (![] : Fin 0 → Fin S1x16.rank)
  bcast_S_S16384x16 : S_.BroadcastsInDim S16384x16 (![] : Fin 0 → Fin S16384x16.rank)
  bcast_S1x16_S16384x16_0_1 : S1x16.BroadcastsInDim S16384x16 (![0, 1] : Fin 2 → Fin S16384x16.rank)
  bcast_S16384x16_S16384x16x1_0_1 : S16384x16.BroadcastsInDim S16384x16x1 (![0, 1] : Fin 2 → Fin S16384x16x1.rank)
  concatenates_S16384x16x1_S16384x16x1_S16384x16x2_d2 : Shape.Concatenates [S16384x16x1, S16384x16x1] S16384x16x2 2
  shapeCasts_S16384x16x1_S16384x16 : S16384x16x1.ShapeCasts S16384x16
  slices_S16384x216_S16384x200_0_16 : S16384x216.Slices ![0, 16] S16384x200
  shapeCasts_S16384x200_S16384x4x50 : S16384x200.ShapeCasts S16384x4x50
  bcast_S4_S1x4x1_1 : S4.BroadcastsInDim S1x4x1 (![1] : Fin 1 → Fin S1x4x1.rank)
  bcast_S_S1x4x1 : S_.BroadcastsInDim S1x4x1 (![] : Fin 0 → Fin S1x4x1.rank)
  bcast_S_S16384x4x50 : S_.BroadcastsInDim S16384x4x50 (![] : Fin 0 → Fin S16384x4x50.rank)
  bcast_S1x4x1_S16384x4x50_0_1_2 : S1x4x1.BroadcastsInDim S16384x4x50 (![0, 1, 2] : Fin 3 → Fin S16384x4x50.rank)
  bcast_S16384x4x50_S16384x4x50x1_0_1_2 : S16384x4x50.BroadcastsInDim S16384x4x50x1 (![0, 1, 2] : Fin 3 → Fin S16384x4x50x1.rank)
  concatenates_S16384x4x50x1_S16384x4x50x1_S16384x4x50x2_d3 : Shape.Concatenates [S16384x4x50x1, S16384x4x50x1] S16384x4x50x2 3
  shapeCasts_S16384x4x50x1_S16384x4x50 : S16384x4x50x1.ShapeCasts S16384x4x50
  shapeCasts_S16384x4x50_S16384x200 : S16384x4x50.ShapeCasts S16384x200
  reducesTo_S16384x4x50_S16384x4_d2 : S16384x4x50.ReducesTo [2] S16384x4
  h_S_ : 0 < S_.numel
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  inb_S2048x200_S2048x200_0_0 : ∀ a, (![0, 0] : Fin 2 → Nat) a + S2048x200.size a ≤ S2048x200.size a
  h_S2048x200 : 0 < S2048x200.numel
  shapeCasts_S2048x200_S2048x200 : S2048x200.ShapeCasts S2048x200
  inb_S2048x4_S2048x4_0_0 : ∀ a, (![0, 0] : Fin 2 → Nat) a + S2048x4.size a ≤ S2048x4.size a
  h_S2048x4 : 0 < S2048x4.numel
  shapeCasts_S2048x4_S2048x4 : S2048x4.ShapeCasts S2048x4
  slices_S2048x200_o0_0_S2048x50 : S2048x200.Slices ![0, 0] S2048x50
  reduces_S2048x50_S2048 : S2048x50.Reduces [1] S2048
  shapeCasts_S2048_S2048x1 : S2048.ShapeCasts S2048x1
  slices_S2048x4_o0_0_S2048x1 : S2048x4.Slices ![0, 0] S2048x1
  slices_S2048x200_o0_50_S2048x50 : S2048x200.Slices ![0, 50] S2048x50
  slices_S2048x4_o0_1_S2048x1 : S2048x4.Slices ![0, 1] S2048x1
  slices_S2048x200_o0_100_S2048x50 : S2048x200.Slices ![0, 100] S2048x50
  slices_S2048x4_o0_2_S2048x1 : S2048x4.Slices ![0, 2] S2048x1
  slices_S2048x200_o0_150_S2048x50 : S2048x200.Slices ![0, 150] S2048x50
  slices_S2048x4_o0_3_S2048x1 : S2048x4.Slices ![0, 3] S2048x1
  concatenates_S2048x1_S2048x1_S2048x1_S2048x1_S2048x4_d1 : Shape.Concatenates [S2048x1, S2048x1, S2048x1, S2048x1] S2048x4 1
  concatenates_S2048x16_S2048x4_S2048x20_d1 : Shape.Concatenates [S2048x16, S2048x4] S2048x20 1
  inb_S2048x20_S2048x20_0_0 : ∀ a, (![0, 0] : Fin 2 → Nat) a + S2048x20.size a ≤ S2048x20.size a
  h_S2048x20 : 0 < S2048x20.numel
  gather_S16x1000000x1_S16384x16x2_S16384x16x1_2_01_n_n_01_2_111_wf : GatherDims.WF S16x1000000x1 S16384x16x2 S16384x16x1 [2] [0, 1] [] [0, 1] [] 2 ![1, 1, 1]
  gather_S4x1000000x1_S16384x4x50x2_S16384x4x50x1_3_01_n_n_01_3_111_wf : GatherDims.WF S4x1000000x1 S16384x4x50x2 S16384x4x50x1 [3] [0, 1] [] [0, 1] [] 3 ![1, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x16.size a ≤ S16384x16.size a
  hwx0_0 : ∀ i : grid0.Coords, EltTy.bits .f32 = 32 ∨ (Rect.block (s := S16384x16) S2048x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x200.size a ≤ S16384x200.size a
  hwx0_1 : ∀ i : grid0.Coords, EltTy.bits .f32 = 32 ∨ (Rect.block (s := S16384x200) S2048x200.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x4.size a ≤ S16384x4.size a
  hwx0_2 : ∀ i : grid0.Coords, EltTy.bits .f32 = 32 ∨ (Rect.block (s := S16384x4) S2048x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x20.size a ≤ S16384x20.size a
  hwx0_3 : ∀ i : grid0.Coords, EltTy.bits .f32 = 32 ∨ (Rect.block (s := S16384x20) S2048x20.size (cc0_transform_3 i) (hinb0_3 i)).WholeWords (EltTy.packing .f32)

variable [Facts₀]

def gather_S16x1000000x1_S16384x16x2_S16384x16x1_2_01_n_n_01_2_111 : GatherDims S16x1000000x1 S16384x16x2 S16384x16x1 where
  offsetDims := [2]
  collapsedSliceDims := [0, 1]
  operandBatchingDims := []
  startIndicesBatchingDims := []
  startIndexMap := [0, 1]
  indexVectorDim := 2
  sliceSizes := ![1, 1, 1]
  wf := gather_S16x1000000x1_S16384x16x2_S16384x16x1_2_01_n_n_01_2_111_wf
def gather_S4x1000000x1_S16384x4x50x2_S16384x4x50x1_3_01_n_n_01_3_111 : GatherDims S4x1000000x1 S16384x4x50x2 S16384x4x50x1 where
  offsetDims := [3]
  collapsedSliceDims := [0, 1]
  operandBatchingDims := []
  startIndicesBatchingDims := []
  startIndexMap := [0, 1]
  indexVectorDim := 3
  sliceSizes := ![1, 1, 1]
  wf := gather_S4x1000000x1_S16384x4x50x2_S16384x4x50x1_3_01_n_n_01_3_111_wf

abbrev win0_0 : Pipeline.Window sig grid0 :=
  Pipeline.Window.ofSpec (Memref.whole main_v18) S2048x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v43) S2048x200.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v44) S2048x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v45) S2048x20.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x216 : Shape := ⟨2, ![16384, 216]⟩
abbrev S16x1000000x1 : Shape := ⟨3, ![16, 1000000, 1]⟩
abbrev S4x1000000x1 : Shape := ⟨3, ![4, 1000000, 1]⟩
abbrev S16384x16 : Shape := ⟨2, ![16384, 16]⟩
abbrev S16 : Shape := ⟨1, ![16]⟩
abbrev S1x16 : Shape := ⟨2, ![1, 16]⟩
abbrev S_ : Shape := ⟨0, ![]⟩
abbrev S16384x16x1 : Shape := ⟨3, ![16384, 16, 1]⟩
abbrev S16384x16x2 : Shape := ⟨3, ![16384, 16, 2]⟩
abbrev S16384x200 : Shape := ⟨2, ![16384, 200]⟩
abbrev S16384x4x50 : Shape := ⟨3, ![16384, 4, 50]⟩
abbrev S4 : Shape := ⟨1, ![4]⟩
abbrev S1x4x1 : Shape := ⟨3, ![1, 4, 1]⟩
abbrev S16384x4x50x1 : Shape := ⟨4, ![16384, 4, 50, 1]⟩
abbrev S16384x4x50x2 : Shape := ⟨4, ![16384, 4, 50, 2]⟩
abbrev S16384x4x1 : Shape := ⟨3, ![16384, 4, 1]⟩
abbrev S16384x20x1 : Shape := ⟨3, ![16384, 20, 1]⟩
abbrev S16384x20 : Shape := ⟨2, ![16384, 20]⟩

abbrev nBuf : Space → Nat
  | .hbm => 64
  | .vmem => 0
  | .smem => 0
  | _ => 0

abbrev bufTy : (tb : Table) → Fin (tcTables nBuf tb) → BufTy
  | .hbm, ⟨0, _⟩ => ⟨S16384x216, .i32⟩
  | .hbm, ⟨1, _⟩ => ⟨S16x1000000x1, .f32⟩
  | .hbm, ⟨2, _⟩ => ⟨S4x1000000x1, .f32⟩
  | .hbm, ⟨3, _⟩ => ⟨S16384x16, .i32⟩
  | .hbm, ⟨4, _⟩ => ⟨S16, .i32⟩
  | .hbm, ⟨5, _⟩ => ⟨S1x16, .i32⟩
  | .hbm, ⟨6, _⟩ => ⟨S_, .i32⟩
  | .hbm, ⟨7, _⟩ => ⟨S1x16, .i32⟩
  | .hbm, ⟨8, _⟩ => ⟨S1x16, .i1⟩
  | .hbm, ⟨9, _⟩ => ⟨S_, .i32⟩
  | .hbm, ⟨10, _⟩ => ⟨S1x16, .i32⟩
  | .hbm, ⟨11, _⟩ => ⟨S1x16, .i32⟩
  | .hbm, ⟨12, _⟩ => ⟨S1x16, .i32⟩
  | .hbm, ⟨13, _⟩ => ⟨S_, .i32⟩
  | .hbm, ⟨14, _⟩ => ⟨S16384x16, .i32⟩
  | .hbm, ⟨15, _⟩ => ⟨S16384x16, .i1⟩
  | .hbm, ⟨16, _⟩ => ⟨S_, .i32⟩
  | .hbm, ⟨17, _⟩ => ⟨S16384x16, .i32⟩
  | .hbm, ⟨18, _⟩ => ⟨S16384x16, .i32⟩
  | .hbm, ⟨19, _⟩ => ⟨S16384x16, .i32⟩
  | .hbm, ⟨20, _⟩ => ⟨S16384x16, .i32⟩
  | .hbm, ⟨21, _⟩ => ⟨S16384x16x1, .i32⟩
  | .hbm, ⟨22, _⟩ => ⟨S16384x16x1, .i32⟩
  | .hbm, ⟨23, _⟩ => ⟨S16384x16x2, .i32⟩
  | .hbm, ⟨24, _⟩ => ⟨S16384x16x1, .f32⟩
  | .hbm, ⟨25, _⟩ => ⟨S16384x200, .i32⟩
  | .hbm, ⟨26, _⟩ => ⟨S16384x4x50, .i32⟩
  | .hbm, ⟨27, _⟩ => ⟨S4, .i32⟩
  | .hbm, ⟨28, _⟩ => ⟨S1x4x1, .i32⟩
  | .hbm, ⟨29, _⟩ => ⟨S_, .i32⟩
  | .hbm, ⟨30, _⟩ => ⟨S1x4x1, .i32⟩
  | .hbm, ⟨31, _⟩ => ⟨S1x4x1, .i1⟩
  | .hbm, ⟨32, _⟩ => ⟨S_, .i32⟩
  | .hbm, ⟨33, _⟩ => ⟨S1x4x1, .i32⟩
  | .hbm, ⟨34, _⟩ => ⟨S1x4x1, .i32⟩
  | .hbm, ⟨35, _⟩ => ⟨S1x4x1, .i32⟩
  | .hbm, ⟨36, _⟩ => ⟨S_, .i32⟩
  | .hbm, ⟨37, _⟩ => ⟨S16384x4x50, .i32⟩
  | .hbm, ⟨38, _⟩ => ⟨S16384x4x50, .i1⟩
  | .hbm, ⟨39, _⟩ => ⟨S_, .i32⟩
  | .hbm, ⟨40, _⟩ => ⟨S16384x4x50, .i32⟩
  | .hbm, ⟨41, _⟩ => ⟨S16384x4x50, .i32⟩
  | .hbm, ⟨42, _⟩ => ⟨S16384x4x50, .i32⟩
  | .hbm, ⟨43, _⟩ => ⟨S16384x4x50, .i32⟩
  | .hbm, ⟨44, _⟩ => ⟨S16384x4x50x1, .i32⟩
  | .hbm, ⟨45, _⟩ => ⟨S16384x4x50x1, .i32⟩
  | .hbm, ⟨46, _⟩ => ⟨S16384x4x50x2, .i32⟩
  | .hbm, ⟨47, _⟩ => ⟨S16384x4x50x1, .f32⟩
  | .hbm, ⟨48, _⟩ => ⟨S_, .i32⟩
  | .hbm, ⟨49, _⟩ => ⟨S16384x4x50, .i32⟩
  | .hbm, ⟨50, _⟩ => ⟨S16384x4x50, .i1⟩
  | .hbm, ⟨51, _⟩ => ⟨S16384x4x50, .f32⟩
  | .hbm, ⟨52, _⟩ => ⟨S16384x4x50x1, .f32⟩
  | .hbm, ⟨53, _⟩ => ⟨S16384x4x50x1, .f32⟩
  | .hbm, ⟨54, _⟩ => ⟨S_, .f32⟩
  | .hbm, ⟨55, _⟩ => ⟨S16384x4x1, .f32⟩
  | .hbm, ⟨56, _⟩ => ⟨S_, .f32⟩
  | .hbm, ⟨57, _⟩ => ⟨S16384x4x1, .f32⟩
  | .hbm, ⟨58, _⟩ => ⟨S_, .f32⟩
  | .hbm, ⟨59, _⟩ => ⟨S16384x4x1, .f32⟩
  | .hbm, ⟨60, _⟩ => ⟨S16384x4x1, .f32⟩
  | .hbm, ⟨61, _⟩ => ⟨S16384x4x1, .f32⟩
  | .hbm, ⟨62, _⟩ => ⟨S16384x20x1, .f32⟩
  | .hbm, ⟨63, _⟩ => ⟨S16384x20, .f32⟩
  | _, _ => ⟨S16384x216, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_3 : Ref sig .tc := ⟨.hbm, 29, rfl⟩
abbrev main_v22 : Ref sig .tc := ⟨.hbm, 30, rfl⟩
abbrev main_v23 : Ref sig .tc := ⟨.hbm, 31, rfl⟩
abbrev main_c_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_5 : Ref sig .tc := ⟨.hbm, 36, rfl⟩
abbrev main_v27 : Ref sig .tc := ⟨.hbm, 37, rfl⟩
abbrev main_v28 : Ref sig .tc := ⟨.hbm, 38, rfl⟩
abbrev main_c_6 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c_7 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst : Ref sig .tc := ⟨.hbm, 54, rfl⟩
abbrev main_v42 : Ref sig .tc := ⟨.hbm, 55, rfl⟩
abbrev main_cst_8 : Ref sig .tc := ⟨.hbm, 56, rfl⟩
abbrev main_v43 : Ref sig .tc := ⟨.hbm, 57, rfl⟩
abbrev main_cst_9 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩

abbrev nD : Nat := 1
abbrev τ : Topo := Topo.v7x

variable {F : FTy → Type} [FloatOps F]

class Facts₀ : Prop where
  slices_S16384x216_S16384x16_0_0 : S16384x216.Slices ![0, 0] S16384x16
  bcast_S16_S1x16_1 : S16.BroadcastsInDim S1x16 (![1] : Fin 1 → Fin S1x16.rank)
  bcast_S_S1x16 : S_.BroadcastsInDim S1x16 (![] : Fin 0 → Fin S1x16.rank)
  bcast_S_S16384x16 : S_.BroadcastsInDim S16384x16 (![] : Fin 0 → Fin S16384x16.rank)
  bcast_S1x16_S16384x16_0_1 : S1x16.BroadcastsInDim S16384x16 (![0, 1] : Fin 2 → Fin S16384x16.rank)
  bcast_S16384x16_S16384x16x1_0_1 : S16384x16.BroadcastsInDim S16384x16x1 (![0, 1] : Fin 2 → Fin S16384x16x1.rank)
  concatenates_S16384x16x1_S16384x16x1_S16384x16x2_d2 : Shape.Concatenates [S16384x16x1, S16384x16x1] S16384x16x2 2
  slices_S16384x216_S16384x200_0_16 : S16384x216.Slices ![0, 16] S16384x200
  shapeCasts_S16384x200_S16384x4x50 : S16384x200.ShapeCasts S16384x4x50
  bcast_S4_S1x4x1_1 : S4.BroadcastsInDim S1x4x1 (![1] : Fin 1 → Fin S1x4x1.rank)
  bcast_S_S1x4x1 : S_.BroadcastsInDim S1x4x1 (![] : Fin 0 → Fin S1x4x1.rank)
  bcast_S_S16384x4x50 : S_.BroadcastsInDim S16384x4x50 (![] : Fin 0 → Fin S16384x4x50.rank)
  bcast_S1x4x1_S16384x4x50_0_1_2 : S1x4x1.BroadcastsInDim S16384x4x50 (![0, 1, 2] : Fin 3 → Fin S16384x4x50.rank)
  bcast_S16384x4x50_S16384x4x50x1_0_1_2 : S16384x4x50.BroadcastsInDim S16384x4x50x1 (![0, 1, 2] : Fin 3 → Fin S16384x4x50x1.rank)
  concatenates_S16384x4x50x1_S16384x4x50x1_S16384x4x50x2_d3 : Shape.Concatenates [S16384x4x50x1, S16384x4x50x1] S16384x4x50x2 3
  reducesTo_S16384x4x50x1_S16384x4x1_d2 : S16384x4x50x1.ReducesTo [2] S16384x4x1
  h_S_ : 0 < S_.numel
  bcast_S_S16384x4x1 : S_.BroadcastsInDim S16384x4x1 (![] : Fin 0 → Fin S16384x4x1.rank)
  concatenates_S16384x16x1_S16384x4x1_S16384x20x1_d1 : Shape.Concatenates [S16384x16x1, S16384x4x1] S16384x20x1 1
  shapeCasts_S16384x20x1_S16384x20 : S16384x20x1.ShapeCasts S16384x20
  gather_S16x1000000x1_S16384x16x2_S16384x16x1_2_01_n_n_01_2_111_wf : GatherDims.WF S16x1000000x1 S16384x16x2 S16384x16x1 [2] [0, 1] [] [0, 1] [] 2 ![1, 1, 1]
  gather_S4x1000000x1_S16384x4x50x2_S16384x4x50x1_3_01_n_n_01_3_111_wf : GatherDims.WF S4x1000000x1 S16384x4x50x2 S16384x4x50x1 [3] [0, 1] [] [0, 1] [] 3 ![1, 1, 1]

variable [Facts₀]

def gather_S16x1000000x1_S16384x16x2_S16384x16x1_2_01_n_n_01_2_111 : GatherDims S16x1000000x1 S16384x16x2 S16384x16x1 where
  offsetDims := [2]
  collapsedSliceDims := [0, 1]
  operandBatchingDims := []
  startIndicesBatchingDims := []
  startIndexMap := [0, 1]
  indexVectorDim := 2
  sliceSizes := ![1, 1, 1]
  wf := gather_S16x1000000x1_S16384x16x2_S16384x16x1_2_01_n_n_01_2_111_wf
def gather_S4x1000000x1_S16384x4x50x2_S16384x4x50x1_3_01_n_n_01_3_111 : GatherDims S4x1000000x1 S16384x4x50x2 S16384x4x50x1 where
  offsetDims := [3]
  collapsedSliceDims := [0, 1]
  operandBatchingDims := []
  startIndicesBatchingDims := []
  startIndexMap := [0, 1]
  indexVectorDim := 3
  sliceSizes := ![1, 1, 1]
  wf := gather_S4x1000000x1_S16384x4x50x2_S16384x4x50x1_3_01_n_n_01_3_111_wf

class Facts : Prop extends Facts₀ where

variable [Facts]
-- ==== Proof.Spec.lean ====
/-
  The pooled-embedding result, index by index.

  An output row has twenty entries. The first sixteen are the row's sixteen single-id embeddings, copied. Entry
  `16 + g`, for each of the four variable-length features `g`, is the masked mean of that feature's fifty
  embeddings: the sum of the fifty masked values divided by the number of unmasked positions plus a small constant.

  `pooledAt` / `pooled` state this over the three matrices a row is computed from — the sixteen embeddings
  `[R, 16]`, the two hundred masked values `[R, 200]` (feature `g` in columns `50 g … 50 g + 49`) and the four counts
  `[R, 4]` — for any number of rows `R`, so that the same definition reads one block of rows and the whole array.
  `sparseCols`, `maskedCols` and `counts` are those three matrices as functions of the gathered embeddings and the
  mask, and `result` is the output as a function of these.
-/
import Idealize.ShloMosaic.PureOps.Ideal
import Idealize.ShloMosaic.Lib.ValueIdx

noncomputable section

namespace Cert.Pool

open Idealize.ShloMosaic Idealize.ShloMosaic.ValueIdx

/-- The constant added to a group's count before the division: the single-precision number nearest to 1e-8, as an
    exact real. Both programs carry the same word, so its value is never needed. -/
abbrev eps : EReal := Ideal.ofBits .f32 0x322BCC77#32

/-- Entry `(p, q)` of the output: for `q < 16` the embedding `W0 (p, q)`; for `q = 16 + g` the sum of the fifty
    masked values `W1 (p, 50 g + l)` divided by `W2 (p, g) + eps`. -/
def pooledAt {R : ℕ} (W0 : (⟨2, ![R, 16]⟩ : Shape).Idx → EReal) (W1 : (⟨2, ![R, 200]⟩ : Shape).Idx → EReal)
    (W2 : (⟨2, ![R, 4]⟩ : Shape).Idx → EReal) (p : Fin R) (q : Fin 20) : EReal :=
  if h : q.val < 16 then W0 (ix2 p ⟨q.val, h⟩)
  else Ideal.div (∑ l : Fin 50, W1 (ix2 p ⟨50 * (q.val - 16) + l.val, by have := q.isLt; have := l.isLt; omega⟩))
    (W2 (ix2 p ⟨q.val - 16, by have := q.isLt; omega⟩) + eps)

/-- The output over `R` rows as one function of the three matrices. -/
def pooled {R : ℕ} (W0 : (⟨2, ![R, 16]⟩ : Shape).Idx → EReal) (W1 : (⟨2, ![R, 200]⟩ : Shape).Idx → EReal)
    (W2 : (⟨2, ![R, 4]⟩ : Shape).Idx → EReal) : (⟨2, ![R, 20]⟩ : Shape).Idx → EReal :=
  fun j => pooledAt W0 W1 W2 (j 0) (j 1)

theorem pooled_ix2 {R : ℕ} (W0 : (⟨2, ![R, 16]⟩ : Shape).Idx → EReal) (W1 : (⟨2, ![R, 200]⟩ : Shape).Idx → EReal)
    (W2 : (⟨2, ![R, 4]⟩ : Shape).Idx → EReal) (p : Fin R) (q : Fin 20) :
    pooled W0 W1 W2 (ix2 p q) = pooledAt W0 W1 W2 p q := rfl

/-- The output in a copied column. -/
theorem pooledAt_lt {R : ℕ} (W0 : (⟨2, ![R, 16]⟩ : Shape).Idx → EReal) (W1 : (⟨2, ![R, 200]⟩ : Shape).Idx → EReal)
    (W2 : (⟨2, ![R, 4]⟩ : Shape).Idx → EReal) (p : Fin R) (q : Fin 16) :
    pooledAt W0 W1 W2 p ⟨q.val, by have := q.isLt; omega⟩ = W0 (ix2 p q) := by
  unfold pooledAt
  rw [dif_pos (show q.val < 16 from q.isLt)]

/-- The output in the column of feature `g`. -/
theorem pooledAt_ge {R : ℕ} (W0 : (⟨2, ![R, 16]⟩ : Shape).Idx → EReal) (W1 : (⟨2, ![R, 200]⟩ : Shape).Idx → EReal)
    (W2 : (⟨2, ![R, 4]⟩ : Shape).Idx → EReal) (p : Fin R) (g : Fin 4) :
    pooledAt W0 W1 W2 p ⟨16 + g.val, by have := g.isLt; omega⟩
      = Ideal.div (∑ l : Fin 50, W1 (ix2 p ⟨50 * g.val + l.val, by have := g.isLt; have := l.isLt; omega⟩))
          (W2 (ix2 p g) + eps) := by
  unfold pooledAt
  rw [dif_neg (show ¬ (16 + g.val < 16) by omega)]
  refine congrArg₂ Ideal.div (Finset.sum_congr rfl fun l _ => congrArg W1 (congrArg (ix2 p) (Fin.ext ?_)))
    (congrArg (· + eps) (congrArg W2 (congrArg (ix2 p) (Fin.ext ?_))))
  · show 50 * (16 + g.val - 16) + l.val = 50 * g.val + l.val
    omega
  · show 16 + g.val - 16 = g.val
    omega

/-- An entry depends only on its own row of the three matrices: if row `p` of one triple is row `p'` of another, the
    entries of those rows agree column by column. -/
theorem pooledAt_congr {R R' : ℕ} (W0 : (⟨2, ![R, 16]⟩ : Shape).Idx → EReal) (W1 : (⟨2, ![R, 200]⟩ : Shape).Idx → EReal)
    (W2 : (⟨2, ![R, 4]⟩ : Shape).Idx → EReal) (W0' : (⟨2, ![R', 16]⟩ : Shape).Idx → EReal)
    (W1' : (⟨2, ![R', 200]⟩ : Shape).Idx → EReal) (W2' : (⟨2, ![R', 4]⟩ : Shape).Idx → EReal) (p : Fin R) (p' : Fin R')
    (q : Fin 20) (h0 : ∀ k : Fin 16, W0 (ix2 p k) = W0' (ix2 p' k)) (h1 : ∀ k : Fin 200, W1 (ix2 p k) = W1' (ix2 p' k))
    (h2 : ∀ k : Fin 4, W2 (ix2 p k) = W2' (ix2 p' k)) :
    pooledAt W0 W1 W2 p q = pooledAt W0' W1' W2' p' q := by
  unfold pooledAt
  split
  · exact h0 _
  · exact congrArg₂ Ideal.div (Finset.sum_congr rfl fun l _ => h1 _) (congrArg (· + eps) (h2 _))

/-- A column index below twenty is one of the sixteen copied columns or `16 + g` for a feature `g`. -/
theorem col_cases (q : Fin 20) :
    (∃ k : Fin 16, q = ⟨k.val, by have := k.isLt; omega⟩) ∨ (∃ g : Fin 4, q = ⟨16 + g.val, by have := g.isLt; omega⟩) := by
  by_cases h : q.val < 16
  · exact Or.inl ⟨⟨q.val, h⟩, rfl⟩
  · exact Or.inr ⟨⟨q.val - 16, by have := q.isLt; omega⟩, Fin.ext (by show q.val = 16 + (q.val - 16); omega)⟩

/-! ## The three matrices from the gathered embeddings and the mask -/

/-- The sixteen single-id embeddings of each row: the gathered array `[16384, 16, 1]` with its unit axis dropped. -/
def sparseCols (A : (⟨3, ![16384, 16, 1]⟩ : Shape).Idx → EReal) : (⟨2, ![16384, 16]⟩ : Shape).Idx → EReal :=
  fun i => A (ix3 (i 0) (i 1) (0 : Fin 1))

/-- The masked values: column `c` of row `r` is the gathered embedding of feature `c / 50` at position `c % 50`
    times the mask there. -/
def maskedCols (E : (⟨4, ![16384, 4, 50, 1]⟩ : Shape).Idx → EReal) (M : (⟨3, ![16384, 4, 50]⟩ : Shape).Idx → EReal) :
    (⟨2, ![16384, 200]⟩ : Shape).Idx → EReal :=
  fun i =>
    E (ix4 (i 0) (⟨(i 1).val / 50, by have h : (i 1).val < 200 := (i 1).isLt; omega⟩ : Fin 4)
        (⟨(i 1).val % 50, Nat.mod_lt _ (by decide)⟩ : Fin 50) (0 : Fin 1))
      * M (ix3 (i 0) (⟨(i 1).val / 50, by have h : (i 1).val < 200 := (i 1).isLt; omega⟩ : Fin 4)
        (⟨(i 1).val % 50, Nat.mod_lt _ (by decide)⟩ : Fin 50))

/-- The counts: the mask summed over the fifty positions of a feature, from the zero the sum starts at. -/
def counts (M : (⟨3, ![16384, 4, 50]⟩ : Shape).Idx → EReal) : (⟨2, ![16384, 4]⟩ : Shape).Idx → EReal :=
  fun i => Ideal.ofBits .f32 0x00000000#32 + ∑ l : Fin 50, M (ix3 (i 0) (i 1) l)

/-- The whole output `[16384, 20]` as a function of the gathered single-id embeddings `A`, the gathered
    variable-length embeddings `E` and the mask `M`. -/
def result (A : (⟨3, ![16384, 16, 1]⟩ : Shape).Idx → EReal) (E : (⟨4, ![16384, 4, 50, 1]⟩ : Shape).Idx → EReal)
    (M : (⟨3, ![16384, 4, 50]⟩ : Shape).Idx → EReal) : (⟨2, ![16384, 20]⟩ : Shape).Idx → EReal :=
  pooled (sparseCols A) (maskedCols E M) (counts M)

end Cert.Pool

end
-- ==== Proof.LibColumns.lean ====
/-
  Column-wise layout operations on matrices, read at an index written by coordinates.

  A block of columns cut from a matrix; a single entry `[1, 1]` repeated down a column `[a, 1]`; two matrices with the
  same rows set side by side, read in the left piece and in the right piece; and a matrix widened by padding columns on
  the right, read inside the original columns. Each holds for any element type and any extents.
-/
import Idealize.ShloMosaic.Lib.Pipeline.Value
import Idealize.ShloMosaic.Lib.ValueIdx
import Idealize.ShloMosaic.Lib.KernelVsHost

namespace Cert.LibColumns

open Idealize.ShloMosaic Idealize.ShloMosaic.ValueIdx

variable {α : Type}

/-- Columns `o … o + m − 1` cut from an `[a, n]` matrix: entry `(p, j)` of the cut is entry `(p, o + j)` of the matrix. -/
theorem slice_cols_apply {a n m : ℕ} (o : ℕ) (X : (⟨2, ![a, n]⟩ : Shape).Idx → α)
    (h : (⟨2, ![a, n]⟩ : Shape).Slices ![0, o] ⟨2, ![a, m]⟩) (p : Fin a) (j : Fin m) (hj : o + j.val < n) :
    extractStridedSlice ⟨2, ![a, m]⟩ ![0, o] X h (ix2 p j) = X (ix2 p ⟨o + j.val, hj⟩) :=
  extractStridedSlice_apply _ _ _ _ _ (fun ax => by
    match ax with
    | ⟨0, _⟩ => show p.val = 0 + p.val; omega
    | ⟨1, _⟩ => rfl)

/-- A single entry `[1, 1]` repeated down a column `[a, 1]`: every entry of the column is that entry. -/
theorem broadcastTo_11_a1_apply {a : ℕ} (v : (⟨2, ![1, 1]⟩ : Shape).Idx → α)
    (h : (⟨2, ![1, 1]⟩ : Shape).Broadcasts ⟨2, ![a, 1]⟩) (p : Fin a) (u : Fin 1) :
    broadcastTo ⟨2, ![a, 1]⟩ v h (ix2 p u) = v (ix2 (0 : Fin 1) (0 : Fin 1)) := by
  refine broadcastTo_apply v h (ix2 p u) (ix2 (0 : Fin 1) (0 : Fin 1)) fun ax => ?_
  match ax with
  | ⟨0, _⟩ => show (0 : ℕ) = if (1 : ℕ) = 1 then 0 else p.val; rw [if_pos rfl]
  | ⟨1, _⟩ => show (0 : ℕ) = if (1 : ℕ) = 1 then 0 else u.val; rw [if_pos rfl]

/-- Two matrices with the same rows set side by side, `[r, n1]` then `[r, n2]`: a column `j < n1` of the result is
    column `j` of the left piece. -/
theorem concat_cols_left {r n1 n2 n : ℕ} (A : (⟨2, ![r, n1]⟩ : Shape).Idx → α) (B : (⟨2, ![r, n2]⟩ : Shape).Idx → α)
    (h : Shape.Concatenates [(⟨2, ![r, n1]⟩ : Shape), ⟨2, ![r, n2]⟩] ⟨2, ![r, n]⟩ 1) (k : Fin r) (j : Fin n1) (hj : j.val < n) :
    concatenate ⟨2, ![r, n]⟩ 1 [⟨⟨2, ![r, n1]⟩, A⟩, ⟨⟨2, ![r, n2]⟩, B⟩] h (ix2 k ⟨j.val, hj⟩) = A (ix2 k j) :=
  concatenate_pair_apply_left 1 A B h _ rfl (ix2 k j) (fun b => by
    match b with
    | ⟨0, _⟩ => rfl
    | ⟨1, _⟩ => rfl)

/-- The same, in the right piece: column `n1 + j` of the result is column `j` of the right piece. -/
theorem concat_cols_right {r n1 n2 n : ℕ} (A : (⟨2, ![r, n1]⟩ : Shape).Idx → α) (B : (⟨2, ![r, n2]⟩ : Shape).Idx → α)
    (h : Shape.Concatenates [(⟨2, ![r, n1]⟩ : Shape), ⟨2, ![r, n2]⟩] ⟨2, ![r, n]⟩ 1) (k : Fin r) (j : Fin n2)
    (hj : n1 + j.val < n) :
    concatenate ⟨2, ![r, n]⟩ 1 [⟨⟨2, ![r, n1]⟩, A⟩, ⟨⟨2, ![r, n2]⟩, B⟩] h (ix2 k ⟨n1 + j.val, hj⟩) = B (ix2 k j) :=
  concatenate_pair_apply_right 1 A B h _ rfl rfl (ix2 k j)
    (fun b hb => by
      match b with
      | ⟨0, _⟩ => rfl
      | ⟨1, _⟩ => exact absurd rfl hb)
    (by show j.val + n1 = n1 + j.val; omega)

/-- A matrix `[r, n]` widened to `[r, N]` by padding columns on the right only: inside the first `n` columns the
    result is the matrix, whatever the padding value. -/
theorem pad_cols_apply {r n N : ℕ} (hi : ℕ) (X : (⟨2, ![r, n]⟩ : Shape).Idx → α) {u : Shape} (v : u.Idx → α)
    (hp : (⟨2, ![r, n]⟩ : Shape).Pads ![0, 0] ![0, hi] ![0, 0] ⟨2, ![r, N]⟩) (hu : 0 < u.numel)
    (k : Fin r) (j : Fin n) (hj : j.val < N) :
    pad ⟨2, ![r, N]⟩ ![0, 0] ![0, hi] ![0, 0] X v hp hu (ix2 k ⟨j.val, hj⟩) = X (ix2 k j) :=
  pad_apply_of_inside _ _ _ X v hp hu _ (ix2 k j) (fun ax => by
    match ax with
    | ⟨0, _⟩ => show k.val = 0 + k.val * (0 + 1); omega
    | ⟨1, _⟩ => show j.val = 0 + j.val * (0 + 1); omega)

end Cert.LibColumns
-- ==== Proof.LibLayout.lean ====
/-
  Layout operations of small rank read at an index written by coordinates, and a row sum.

  A column vector `[a, 1]` made from a vector `[a]`, a column broadcast along the rows of a matrix `[a, b]`, and the
  sum of a matrix's rows by a reduction over its second axis: each read at `ix1` / `ix2` coordinates.
-/
import Idealize.ShloMosaic.Lib.Pipeline.Value
import Idealize.ShloMosaic.Lib.ValueIdx
import Idealize.ShloMosaic.Lib.ValueLayout
import Idealize.ShloMosaic.PureOps.Ideal.Laws

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the second axis of a matrix of extended reals, read at row `n`: the row's sum. -/
theorem multiReduction_add_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral FTy.f32 hφ)
    (n : Fin a) :
    multiReduction .add [1] ⟨1, ![a]⟩ src acc h hφ hacc (ix1 n) = ∑ k : Fin b, src (ix2 n k) := by
  refine (Ideal.multiReduction_add_single src acc h hφ hacc (ix1 n)).trans ?_
  refine Finset.sum_congr rfl fun k _ => ?_
  exact congrArg src (funext fun ax => Fin.ext (by match ax with | ⟨0, _⟩ => rfl | ⟨1, _⟩ => rfl))

/-- The maximum over the second axis of a matrix of extended reals, read at row `n`: the fold of `max` over the row
    from the accumulator's value. -/
theorem multiReduction_max_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.maximumf.neutral FTy.f32 hφ)
    (n : Fin a) :
    multiReduction .maximumf [1] ⟨1, ![a]⟩ src acc h hφ hacc (ix1 n)
      = (Finset.univ : Finset (Fin b)).fold max (Ideal.ofBits .f32 acc) (fun k => src (ix2 n k)) := by
  refine (Ideal.multiReduction_maximumf_single src acc h hφ hacc (ix1 n)).trans ?_
  refine congrArg (Finset.fold max (Ideal.ofBits .f32 acc) · Finset.univ) (funext fun k => ?_)
  exact congrArg src (funext fun ax => Fin.ext (by match ax with | ⟨0, _⟩ => rfl | ⟨1, _⟩ => rfl))

/-- The row sum and the row maximum with the accumulator's word and its proof spelt as a printed body spells them (the
    zero word; the `-∞` word), so that they rewrite a printed reduction where it stands. -/
theorem sum_rows_apply {a b : ℕ} (src : FVec Ideal ⟨2, ![a, b]⟩ .f32)
    (h : (⟨2, ![a, b]⟩ : Shape).Reduces [1] ⟨1, ![a]⟩) (hφ : FKind.Formats FTy.f32)
    (hacc : (0x00000000#32 : BitVec 32) = 0x00000000#32) (n : Fin a) :
    multiReduction .add [1] ⟨1, ![a]⟩ src 0x00000000#32 h hφ hacc (ix1 n) = ∑ k : Fin b, src (ix2 n k) :=
  multiReduction_add_rows src 0x00000000#32 h hφ hacc n

theorem max_rows_apply {a b : ℕ} (src : FVec Ideal ⟨2, ![a, b]⟩ .f32)
    (h : (⟨2, ![a, b]⟩ : Shape).Reduces [1] ⟨1, ![a]⟩) (hφ : FKind.Formats FTy.f32)
    (hacc : (0xFF800000#32 : BitVec 32) = 0xFF800000#32) (n : Fin a) :
    multiReduction .maximumf [1] ⟨1, ![a]⟩ src 0xFF800000#32 h hφ hacc (ix1 n)
      = (Finset.univ : Finset (Fin b)).fold max (Ideal.ofBits .f32 0xFF800000#32) (fun k => src (ix2 n k)) :=
  multiReduction_max_rows src 0xFF800000#32 h hφ hacc n

/-- A vector `[b]` laid as one row and repeated down the rows of `[a, b]` reads, at `(p, c)`, the vector at `c`
    (a bias added to every row). -/
theorem rowBias_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- A matrix product of rows with rows (`A · Bᵀ`: the second axis of each operand contracted) into a zero accumulator,
    on the extended reals: entry `(p, q)` is the sum over `k` of `A[p, k] · B[q, k]`.  The record's own facts (one
    contracted axis of extent `K`; the free axes' coordinates) are hypotheses, closed at a literal record by
    `rfl` and by unfolding the index functions. -/
theorem matmul_rows_rows_apply {M K N : ℕ} {φ₁ φ₂ : FTy} (d : DotDims ⟨2, ![M, K]⟩ ⟨2, ![N, K]⟩ ⟨2, ![M, N]⟩)
    (hr : d.contr.rank = 1) (hs : d.contr.size ⟨0, by omega⟩ = K)
    (hlc : d.lhsContracting = [1]) (hrc : d.rhsContracting = [1])
    (hl0 : ∀ j k, (d.lhsIdx j k 0).val = (j 0).val) (hr0 : ∀ j k, (d.rhsIdx j k 0).val = (j 1).val)
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ k : Fin K, lhs (ix2 p k) * rhs (ix2 q k) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact hr0 _ _
    | ⟨1, _⟩ => exact (d.rhsIdx_val_of_single hrc _ _).trans hk)
  rw [el, er]

/-- A matrix product of rows with columns (`A · B`: the left operand's second axis against the right operand's first)
    into a zero accumulator, on the extended reals: entry `(p, q)` is the sum over `k` of `A[p, k] · B[k, q]`. -/
theorem matmul_rows_cols_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

/-- A vector cut from `o` reads, at `j`, the source at `o + j`. -/
theorem slice1_eq {n0 m : Nat} (o : Nat) (X : (⟨1, ![n0]⟩ : Shape).Idx → α)
    (h : (⟨1, ![n0]⟩ : Shape).Slices ![o] ⟨1, ![m]⟩) (j : Fin m) :
    extractStridedSlice ⟨1, ![m]⟩ ![o] X h (ix1 j)
      = X (ix1 ⟨o + j.val, Nat.lt_of_lt_of_le (Nat.add_lt_add_left j.isLt o) (h.2 0)⟩) :=
  extractStridedSlice_apply _ _ _ _ _ (fun ax => by
    match ax with
    | ⟨0, _⟩ => rfl)

/-- A column `[a, 1]` read back as the vector `[a]`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A sum over 512 terms is the sum of its eight runs of 64. -/
theorem sum_512_eq_8x64 {M : Type*} [AddCommMonoid M] (f : Fin 512 → M) :
    ∑ r : Fin 512, f r = ∑ c : Fin 8, ∑ j : Fin 64, f ⟨64 * c.val + j.val, by omega⟩ := by
  have e := Equiv.sum_comp (finProdFinEquiv (m := 8) (n := 64)) (fun r : Fin (8 * 64) => f r)
  rw [show (∑ r : Fin 512, f r) = ∑ r : Fin (8 * 64), f r from rfl, ← e, Fintype.sum_prod_type]
  refine Finset.sum_congr rfl fun c _ => Finset.sum_congr rfl fun j _ => congrArg f (Fin.ext ?_)
  show j.val + 64 * c.val = 64 * c.val + j.val
  omega

/-- The same sum as an accumulation from zero of the eight runs, in order. -/
theorem sum_512_chunks {M : Type*} [AddCommMonoid M] (f : Fin 512 → M) :
    ∑ r : Fin 512, f r =
      0 + (∑ j : Fin 64, f ⟨0 + j.val, by omega⟩) + (∑ j : Fin 64, f ⟨64 + j.val, by omega⟩)
        + (∑ j : Fin 64, f ⟨128 + j.val, by omega⟩) + (∑ j : Fin 64, f ⟨192 + j.val, by omega⟩)
        + (∑ j : Fin 64, f ⟨256 + j.val, by omega⟩) + (∑ j : Fin 64, f ⟨320 + j.val, by omega⟩)
        + (∑ j : Fin 64, f ⟨384 + j.val, by omega⟩) + (∑ j : Fin 64, f ⟨448 + j.val, by omega⟩) := by
  rw [sum_512_eq_8x64, Fin.sum_univ_eight, zero_add]
  rfl

end Cert.LibLayout
-- ==== Proof.LibCols4.lean ====
/-
  Four columns set side by side, read at an index written by coordinates.

  A matrix `[r, 4]` made by concatenating four columns `[r, 1]` along its second axis: entry `(p, g)` of the result is
  entry `(p, 0)` of the `g`-th column. Holds for any element type and any number of rows.
-/
import Idealize.ShloMosaic.Lib.Pipeline.Value
import Idealize.ShloMosaic.Lib.ValueIdx

namespace Cert.LibCols4

open Idealize.ShloMosaic Idealize.ShloMosaic.ValueIdx

/-- Four columns `[r, 1]` set side by side: column `g` of the result is the `g`-th of them. -/
theorem concat4_cols {α : Type} {r : ℕ} (A0 A1 A2 A3 : (⟨2, ![r, 1]⟩ : Shape).Idx → α)
    (h : Shape.Concatenates [(⟨2, ![r, 1]⟩ : Shape), ⟨2, ![r, 1]⟩, ⟨2, ![r, 1]⟩, ⟨2, ![r, 1]⟩] ⟨2, ![r, 4]⟩ 1)
    (p : Fin r) (g : Fin 4) :
    concatenate ⟨2, ![r, 4]⟩ 1 [⟨⟨2, ![r, 1]⟩, A0⟩, ⟨⟨2, ![r, 1]⟩, A1⟩, ⟨⟨2, ![r, 1]⟩, A2⟩, ⟨⟨2, ![r, 1]⟩, A3⟩] h (ix2 p g)
      = (![A0, A1, A2, A3] : Fin 4 → (⟨2, ![r, 1]⟩ : Shape).Idx → α) g (ix2 p (0 : Fin 1)) :=
  concatenate_ofFn_unit_apply (t := ⟨2, ![r, 4]⟩) (s₁ := ⟨2, ![r, 1]⟩) 1 (![A0, A1, A2, A3]) h rfl rfl (ix2 p g) g rfl
    (ix2 p (0 : Fin 1)) (fun b hb => by
      match b with
      | ⟨0, _⟩ => rfl
      | ⟨1, _⟩ => exact absurd rfl hb)

end Cert.LibCols4
-- ==== Proof.Payload.lean ====
/-
  The kernel body's arithmetic at one entry.

  From a block of `2048` rows of the three input matrices the body computes a block of `2048` output rows: it lays
  the sixteen embeddings and four quotients side by side, and each quotient is a row sum over fifty of the two
  hundred masked columns divided by one of the four counts plus the constant. Entry `(p, q)` of that block is therefore
  `Pool.pooledAt` of the three blocks at `(p, q)`: the body's value is `Pool.pooled` over `2048` rows.
-/
import proofs.«108233_j37795712205301_2_alg».proof.Proof.Gen.KernelIdeal.Skeleton
import proofs.«108233_j37795712205301_2_alg».proof.Proof.Spec
import proofs.«108233_j37795712205301_2_alg».proof.Proof.LibColumns
import proofs.«108233_j37795712205301_2_alg».proof.Proof.LibLayout
import proofs.«108233_j37795712205301_2_alg».proof.Proof.LibCols4
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx Cert.Pool

/-- One quotient column of the body at row `p`: the sum of the fifty masked columns from column `o` on, divided by
    the count in column `g` plus the constant. -/
theorem quotient_apply (x1 : FVec Ideal S2048x200 .f32) (x2 : FVec Ideal S2048x4 .f32) (o g : ℕ)
    (hs : S2048x200.Slices ![0, o] S2048x50) (hc : S2048x4.Slices ![0, g] S2048x1)
    (hr : S2048x50.Reduces [1] S2048) (hφ : FKind.Formats FTy.f32) (hacc : (0x00000000#32 : BitVec 32) = 0x00000000#32)
    (h1 : S2048.ShapeCasts S2048x1) (ho : o + 50 ≤ 200) (hg : g < 4) (p : Fin 2048) :
    divf (shapeCast S2048x1 (multiReduction .add [1] S2048 (extractStridedSlice S2048x50 ![0, o] x1 hs) 0x00000000#32 hr hφ hacc) h1)
        (addf (extractStridedSlice S2048x1 ![0, g] x2 hc) (broadcast S2048x1 (Scalar.ofBits .f32 0x322BCC77#32)))
        (ix2 p (0 : Fin 1))
      = Ideal.div (∑ l : Fin 50, x1 (ix2 p ⟨o + l.val, by have := l.isLt; omega⟩)) (x2 (ix2 p ⟨g, hg⟩) + eps) := by
  refine (divf_apply _ _ _).trans (congrArg₂ Ideal.div ?_ ?_)
  · refine (Cert.LibLayout.shapeCast_a_a1_apply _ h1 p (0 : Fin 1)).trans ?_
    refine (Cert.LibLayout.sum_rows_apply _ hr hφ hacc p).trans (Finset.sum_congr rfl fun l _ => ?_)
    exact Cert.LibColumns.slice_cols_apply o x1 hs p l (by have := l.isLt; omega)
  · refine (addf_apply _ _ _).trans (congrArg₂ (· + ·) ?_ rfl)
    exact (Cert.LibColumns.slice_cols_apply g x2 hc p (0 : Fin 1) (by omega)).trans
      (congrArg x2 (congrArg (ix2 p) (Fin.ext (by show g + 0 = g; omega))))

/-- THE BODY'S VALUE: the block it stores is `Pool.pooled` of the three blocks it loads. -/
theorem payload_eq (x0 : Vec Ideal S2048x16 .f32) (x1 : Vec Ideal S2048x200 .f32) (x2 : Vec Ideal S2048x4 .f32) :
    k0_pay1 (F := Ideal) x0 x1 x2 = pooled (R := 2048) x0 x1 x2 := by
  funext j
  obtain ⟨p, q, rfl⟩ : ∃ (p : Fin 2048) (q : Fin 20), j = ix2 p q := ⟨j 0, j 1, eq_ix2 j⟩
  rw [pooled_ix2]
  unfold k0_pay1
  rcases col_cases q with ⟨k, rfl⟩ | ⟨g, rfl⟩
  · rw [pooledAt_lt]
    refine (Cert.LibColumns.concat_cols_left _ _ _ p k _).trans ?_
    exact congrFun (shapeCast_self _ _) _
  · rw [pooledAt_ge]
    refine (Cert.LibColumns.concat_cols_right _ _ _ p g _).trans ?_
    refine (Cert.LibCols4.concat4_cols _ _ _ _ _ p g).trans ?_
    rw [shapeCast_self, shapeCast_self]
    match g with
    | ⟨0, _⟩ => exact (quotient_apply x1 x2 0 0 _ _ _ _ _ _ (by omega) (by omega) p).trans (by simp)
    | ⟨1, _⟩ => exact (quotient_apply x1 x2 50 1 _ _ _ _ _ _ (by omega) (by omega) p).trans (by simp)
    | ⟨2, _⟩ => exact (quotient_apply x1 x2 100 2 _ _ _ _ _ _ (by omega) (by omega) p).trans (by simp)
    | ⟨3, _⟩ => exact (quotient_apply x1 x2 150 3 _ _ _ _ _ _ (by omega) (by omega) p).trans (by simp)

end Cert.KernelIdeal.Body

end
-- ==== Proof.Blocks.lean ====
/-
  From blocks of rows to the whole array.

  The grid has eight points. At point `t` every window's block is rows `2048 t … 2048 t + 2047` of its array, all of
  the array's columns; the body turns the three input blocks into the output block (`Body.payload_eq`). An output
  entry depends only on its own row of the three input matrices, so block `t` of the output is block `t` of
  `Pool.pooled` of the whole input matrices; the eight blocks cover the `16384` rows (row `r` is in block `r / 2048`),
  so after the run the output array is `Pool.pooled` of the three input matrices as the region finds them.
-/
import proofs.«108233_j37795712205301_2_alg».proof.Proof.Gen.KernelIdeal.Value
import proofs.«108233_j37795712205301_2_alg».proof.Proof.Payload
import Idealize.ShloMosaic.Lib.Pipeline.Value

noncomputable section

namespace Cert.KernelIdeal.Blocks

open Cert.KernelIdeal Cert.KernelIdeal.Gen Cert.KernelIdeal.Value Idealize.ShloMosaic Idealize.ShloMosaic.TcCoe
  Idealize.SL.Sem Idealize.ShloMosaic.ValueIdx Cert.Pool
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The printed index maps, decided over the eight points: every window's block row is the point's number and its
    block column is `0`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The three input matrices as the region finds them. -/
abbrev W0 (c : Dev nD) : S16384x16.Idx → EReal := V m c main_v18
abbrev W1 (c : Dev nD) : S16384x200.Idx → EReal := V m c main_v43
abbrev W2 (c : Dev nD) : S16384x4.Idx → EReal := V m c main_v44

/-- WHAT POINT `t` WRITES BACK is block `t` of `Pool.pooled` of the three input matrices. -/
theorem flushed_eq (c : Dev nD) (t : Fin cfg0.N) :
    (dats m 0 c).flushed 3 t
      = ((cfg0.win 3).blk t).view.read (Elt Ideal) (pooled (R := 16384) (W0 m c) (W1 m c) (W2 m c)) := by
  rw [flushed3]
  unfold out0_3
  rw [View.canon_unit_zero origin]
  simp only [View.ld_unit_zero (S := S2048x16) origin, View.ld_unit_zero (S := S2048x200) origin,
    View.ld_unit_zero (S := S2048x4) origin]
  rw [Body.payload_eq (iblk m c 0 t) (iblk m c 1 t) (iblk m c 2 t)]
  obtain ⟨e00, e01, e10, e11, e20, e21, e30, e31⟩ := idx_facts t
  funext j
  have hj0 : (j 0).val < 2048 := (j 0).isLt
  have hj1 : (j 1).val < 20 := (j 1).isLt
  have ht : t.val < 8 := t.isLt
  have hemb : ((cfg0.win 3).blk t).view.emb j
      = ix2 (⟨t.val * 2048 + (j 0).val, by omega⟩ : Fin 16384) (⟨(j 1).val, hj1⟩ : Fin 20) := by
    funext a; apply Fin.ext
    match a with
    | ⟨0, _⟩ => show win0_3.index t (0 : Fin 2) * 2048 + 1 * (j 0).val = t.val * 2048 + (j 0).val; omega
    | ⟨1, _⟩ => show win0_3.index t (1 : Fin 2) * 20 + 1 * (j 1).val = (j 1).val; omega
  show pooledAt (iblk m c 0 t) (iblk m c 1 t) (iblk m c 2 t) (⟨(j 0).val, hj0⟩ : Fin 2048) (⟨(j 1).val, hj1⟩ : Fin 20)
    = pooled (R := 16384) (W0 m c) (W1 m c) (W2 m c) (((cfg0.win 3).blk t).view.emb j)
  rw [hemb, pooled_ix2]
  refine pooledAt_congr (R := 2048) (R' := 16384) (iblk m c 0 t) (iblk m c 1 t) (iblk m c 2 t) (W0 m c) (W1 m c) (W2 m c)
    (⟨(j 0).val, hj0⟩ : Fin 2048) (⟨t.val * 2048 + (j 0).val, by omega⟩ : Fin 16384) (⟨(j 1).val, hj1⟩ : Fin 20)
    (fun k => ?_) (fun k => ?_) (fun k => ?_)
  · show V m c main_v18 (((cfg0.win 0).blk t).view.emb (ix2 (⟨(j 0).val, hj0⟩ : Fin 2048) k)) = V m c main_v18 _
    refine congrArg (V m c main_v18) (funext fun a => Fin.ext ?_)
    match a with
    | ⟨0, _⟩ => show win0_0.index t (0 : Fin 2) * 2048 + 1 * (j 0).val = t.val * 2048 + (j 0).val; omega
    | ⟨1, _⟩ => show win0_0.index t (1 : Fin 2) * 16 + 1 * k.val = k.val; omega
  · show V m c main_v43 (((cfg0.win 1).blk t).view.emb (ix2 (⟨(j 0).val, hj0⟩ : Fin 2048) k)) = V m c main_v43 _
    refine congrArg (V m c main_v43) (funext fun a => Fin.ext ?_)
    match a with
    | ⟨0, _⟩ => show win0_1.index t (0 : Fin 2) * 2048 + 1 * (j 0).val = t.val * 2048 + (j 0).val; omega
    | ⟨1, _⟩ => show win0_1.index t (1 : Fin 2) * 200 + 1 * k.val = k.val; omega
  · show V m c main_v44 (((cfg0.win 2).blk t).view.emb (ix2 (⟨(j 0).val, hj0⟩ : Fin 2048) k)) = V m c main_v44 _
    refine congrArg (V m c main_v44) (funext fun a => Fin.ext ?_)
    match a with
    | ⟨0, _⟩ => show win0_2.index t (0 : Fin 2) * 2048 + 1 * (j 0).val = t.val * 2048 + (j 0).val; omega
    | ⟨1, _⟩ => show win0_2.index t (1 : Fin 2) * 4 + 1 * k.val = k.val; omega

/-- An index of the output array is in point `t`'s block iff each coordinate is in the block's range on its axis. -/
theorem mem_blk (t : Fin cfg0.N) (i : S16384x20.Idx) :
    i ∈ ((cfg0.win 3).blk t).view.set ↔ ∀ a : Fin 2, win0_3.index t a * S2048x20.size a ≤ (i a).val
      ∧ (i a).val < win0_3.index t a * S2048x20.size a + S2048x20.size a := by
  show i ∈ ((View.whole main_v45).slice (win0_3.rect t)).set ↔ _
  rw [View.set_slice_whole, Rect.mem_set_unit]
  exact Iff.rfl

/-- The eight blocks cover the output array: row `r` lies in the block of point `r / 2048`. -/
theorem cover (i : S16384x20.Idx) :
    ∃ t : Fin cfg0.N, (cfg0.win 3).flush t = true ∧ i ∈ ((cfg0.win 3).blk t).view.set := by
  have hi0 : (i 0).val < 16384 := (i 0).isLt
  have hi1 : (i 1).val < 20 := (i 1).isLt
  refine ⟨⟨(i 0).val / 2048, by show (i 0).val / 2048 < 8; omega⟩, flush0_3 _, ?_⟩
  rw [mem_blk]
  obtain ⟨-, -, -, -, -, -, e30, e31⟩ := idx_facts ⟨(i 0).val / 2048, by show (i 0).val / 2048 < 8; omega⟩
  intro a
  match a with
  | ⟨0, _⟩ =>
    show win0_3.index _ (0 : Fin 2) * 2048 ≤ (i 0).val ∧ (i 0).val < win0_3.index _ (0 : Fin 2) * 2048 + 2048
    rw [e30]; show (i 0).val / 2048 * 2048 ≤ (i 0).val ∧ (i 0).val < (i 0).val / 2048 * 2048 + 2048; omega
  | ⟨1, _⟩ =>
    show win0_3.index _ (1 : Fin 2) * 20 ≤ (i 1).val ∧ (i 1).val < win0_3.index _ (1 : Fin 2) * 20 + 20
    rw [e31]; omega

/-- THE OUTPUT ARRAY after the run. -/
theorem final (c : Dev nD) :
    (dats m 0 c).arrAt 3 cfg0.N = pooled (R := 16384) (W0 m c) (W1 m c) (W2 m c) :=
  (dats m 0 c).arrAt_eq_of_cover 3 (pooled (R := 16384) (W0 m c) (W1 m c) (W2 m c)) (fun t _ => flushed_eq m c t) cover

/-- The kernel's run with its result named: `Pool.pooled` of the three matrices the host operations leave. -/
theorem run : θ_run defs (onTc (τ := τ) (main (F := Ideal))) ⟨m, fun _ => 0, ρ⟩ fun r => ∀ c : Dev nD,
      r.2.mem ((c : Thread nD τ).loc main_v45) = pooled (R := 16384) (W0 m c) (W1 m c) (W2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Blocks

end
-- ==== Proof.Windows.lean ====
/-
  The three matrices the kernel is launched on, as functions of the arguments.

  Before the kernel is launched the host operations gather the single-id embeddings `A` (`[16384, 16, 1]`) and the
  variable-length embeddings `E` (`[16384, 4, 50, 1]`), form the mask `M` (`[16384, 4, 50]`: one where an id is
  non-zero) and from them write the kernel's three operands: `A` with its unit axis dropped; the product of `E`
  (unit axis dropped) and `M`, its last two axes `[4, 50]` merged into `200` columns; and `M` summed over its last
  axis. The gathers and the mask are, operation for operation, the reference's own first stages, so they are named by
  the reference's stage functions and never opened. Read at an index the three operands are `Pool.sparseCols`,
  `Pool.maskedCols` and `Pool.counts` of `A`, `E`, `M`: a merge of axes reads row-major (column `c` of the merged
  matrix is feature `c / 50`, position `c % 50`), and the host's sum over one axis is the initial value plus the sum
  over that axis's coordinates.
-/
import proofs.«108233_j37795712205301_2_alg».proof.Proof.Gen.KernelIdeal.Frame
import proofs.«108233_j37795712205301_2_alg».proof.Proof.Gen.ReferenceIdeal.Read
import proofs.«108233_j37795712205301_2_alg».proof.Proof.Spec
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.Windows

open Cert.KernelIdeal Cert.KernelIdeal.Gen Idealize.ShloMosaic Idealize.ShloMosaic.TcCoe Idealize.SL.Sem
  Idealize.ShloMosaic.StableHlo Idealize.ShloMosaic.ValueIdx Cert.Pool

variable (m : (ℓ : Loc nD τ sig) → Buf (Elt Ideal) ℓ)

/-- The gathered single-id embeddings, as a function of the argument arrays. -/
abbrev gatherA (c : Dev nD) : FVec Ideal S16384x16x1 .f32 :=
  Cert.ReferenceIdeal.Read.val_main_v17 (F := Ideal) (m ((c : Thread nD τ).loc main_arg0)) (m ((c : Thread nD τ).loc main_arg1))

/-- The gathered variable-length embeddings. -/
abbrev gatherE (c : Dev nD) : FVec Ideal S16384x4x50x1 .f32 :=
  Cert.ReferenceIdeal.Read.val_main_v36 (F := Ideal) (m ((c : Thread nD τ).loc main_arg0)) (m ((c : Thread nD τ).loc main_arg2))

/-- The mask: one where a variable-length id is non-zero, zero elsewhere. -/
abbrev maskM (c : Dev nD) : FVec Ideal S16384x4x50 .f32 :=
  Cert.ReferenceIdeal.Read.val_main_v39 (F := Ideal) (m ((c : Thread nD τ).loc main_arg0))

/-! ## The operands as terms of the host operations -/

set_option maxRecDepth 8192 in
set_option maxHeartbeats 8000000 in
theorem sparse_term (c : Dev nD) :
    (V m c main_v18 : S16384x16.Idx → EReal)
      = shapeCast S16384x16 (gatherA m c) Facts₀.shapeCasts_S16384x16x1_S16384x16 := by
  dsimp only [V, hostOps0]
  after_results_simp <;> rfl

set_option maxRecDepth 8192 in
set_option maxHeartbeats 8000000 in
theorem masked_term (c : Dev nD) :
    (V m c main_v43 : S16384x200.Idx → EReal)
      = shapeCast S16384x200
          (mulf (shapeCast S16384x4x50 (gatherE m c) Facts₀.shapeCasts_S16384x4x50x1_S16384x4x50) (maskM m c))
          Facts₀.shapeCasts_S16384x4x50_S16384x200 := by
  dsimp only [V, hostOps0]
  after_results_simp <;> rfl

set_option maxRecDepth 8192 in
set_option maxHeartbeats 8000000 in
theorem counts_term (c : Dev nD) :
    (V m c main_v44 : S16384x4.Idx → EReal)
      = Host.reduceAdd (maskM m c) (constant (F := Ideal) S_ .f32 0x00000000#32)
          Facts₀.reducesTo_S16384x4x50_S16384x4_d2 Facts₀.h_S_ := by
  dsimp only [V, hostOps0]
  after_results_simp <;> rfl

/-! ## The operands index by index -/

theorem sparse_eq (c : Dev nD) : (V m c main_v18 : S16384x16.Idx → EReal) = sparseCols (gatherA m c) := by
  rw [sparse_term]
  funext i
  obtain ⟨r, k, rfl⟩ : ∃ (r : Fin 16384) (k : Fin 16), i = ix2 r k := ⟨i 0, i 1, eq_ix2 i⟩
  refine shapeCast_apply _ _ _ (ix3 r k (0 : Fin 1)) ?_
  rw [Shape.rowMajor_val_three, Shape.rowMajor_val_two]
  show (r.val * 16 + k.val) * 1 + 0 = r.val * 16 + k.val
  omega

theorem masked_eq (c : Dev nD) :
    (V m c main_v43 : S16384x200.Idx → EReal) = maskedCols (gatherE m c) (maskM m c) := by
  rw [masked_term]
  funext i
  obtain ⟨r, k, rfl⟩ : ∃ (r : Fin 16384) (k : Fin 200), i = ix2 r k := ⟨i 0, i 1, eq_ix2 i⟩
  have hk : k.val < 200 := k.isLt
  refine (shapeCast_apply _ _ _ (ix3 r (⟨k.val / 50, by omega⟩ : Fin 4) (⟨k.val % 50, Nat.mod_lt _ (by decide)⟩ : Fin 50)) ?_).trans ?_
  · rw [Shape.rowMajor_val_three, Shape.rowMajor_val_two]
    show (r.val * 4 + k.val / 50) * 50 + k.val % 50 = r.val * 200 + k.val
    omega
  · refine (mulf_apply _ _ _).trans (congrArg₂ (· * ·) ?_ rfl)
    refine shapeCast_apply _ _ _
      (ix4 r (⟨k.val / 50, by omega⟩ : Fin 4) (⟨k.val % 50, Nat.mod_lt _ (by decide)⟩ : Fin 50) (0 : Fin 1)) ?_
    rw [Shape.rowMajor_val_four, Shape.rowMajor_val_three]
    show ((r.val * 4 + k.val / 50) * 50 + k.val % 50) * 1 + 0 = (r.val * 4 + k.val / 50) * 50 + k.val % 50
    omega

theorem counts_eq (c : Dev nD) : (V m c main_v44 : S16384x4.Idx → EReal) = counts (maskM m c) := by
  rw [counts_term]
  funext i
  obtain ⟨r, g, rfl⟩ : ∃ (r : Fin 16384) (g : Fin 4), i = ix2 r g := ⟨i 0, i 1, eq_ix2 i⟩
  simp only [Host.reduceAdd, Ideal.hostReduceAdd_def]
  rw [Ideal.hostReduceAdd_single Facts₀.reducesTo_S16384x4x50_S16384x4_d2 (by decide)]
  unfold counts
  refine congrArg₂ (· + ·) rfl (Finset.sum_congr rfl fun l _ => congrArg _ (funext fun a => Fin.ext ?_))
  match a with
  | ⟨0, _⟩ => rfl
  | ⟨1, _⟩ => rfl
  | ⟨2, _⟩ => rfl

end Cert.KernelIdeal.Windows

end
-- ==== Proof.RefValue.lean ====
/-
  The reference's result is `Pool.result`.

  The reference sets the gathered single-id embeddings `[16384, 16, 1]` and the masked means `[16384, 4, 1]` side by
  side along the second axis and drops the trailing unit axis. Entry `(r, q)` of its result is therefore the gathered
  embedding `(r, q, 0)` for `q < 16`, and for `q = 16 + g` the quotient at `(r, g, 0)`: the sum over the fifty
  positions `l` of the gathered embedding `(r, g, l, 0)` times the mask at `(r, g, l)`, divided by the sum of the
  mask over the positions plus the constant. Column `50 g + l` of the masked matrix is that product, which is how
  `Pool.result` spells the same sum; both sums start from the zero word, which is the real number zero.
-/
import proofs.«108233_j37795712205301_2_alg».proof.Proof.Gen.ReferenceIdeal.Read
import proofs.«108233_j37795712205301_2_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic
  Idealize.ShloMosaic.ValueIdx Cert.Pool

/-- THE REFERENCE'S VALUE: its last stage is `Pool.result` of its two gathers and its mask. -/
theorem result_eq (x0 : (⟨S16384x216, .i32⟩ : BufTy).Contents (Elt Ideal))
    (x1 : (⟨S16x1000000x1, .f32⟩ : BufTy).Contents (Elt Ideal))
    (x2 : (⟨S4x1000000x1, .f32⟩ : BufTy).Contents (Elt Ideal)) :
    val_main_v48 (F := Ideal) x0 x1 x2
      = result (val_main_v17 (F := Ideal) x0 x1) (val_main_v36 (F := Ideal) x0 x2) (val_main_v39 (F := Ideal) x0) := by
  funext j
  obtain ⟨r, q, rfl⟩ : ∃ (r : Fin 16384) (q : Fin 20), j = ix2 r q := ⟨j 0, j 1, eq_ix2 j⟩
  rw [val_main_v48_apply]
  show _ = pooledAt _ _ _ r q
  unfold val_main_v47
  rcases col_cases q with ⟨k, rfl⟩ | ⟨g, rfl⟩
  · rw [pooledAt_lt]
    refine (concatenate_pair_apply_left (t := S16384x20x1) (s₁ := S16384x16x1) (s₂ := S16384x4x1) 1 _ _ _ _ rfl
      (ix3 r k (0 : Fin 1)) (fun b => ?_)).trans rfl
    match b with
    | ⟨0, _⟩ => show r.val = (r.val * 20 + k.val) / 20; have := k.isLt; omega
    | ⟨1, _⟩ => show k.val = (r.val * 20 + k.val) / 1 % 20; have := k.isLt; omega
    | ⟨2, _⟩ => rfl
  · rw [pooledAt_ge]
    refine (concatenate_pair_apply_right (t := S16384x20x1) (s₁ := S16384x16x1) (s₂ := S16384x4x1) 1 _ _ _ _ rfl rfl
      (ix3 r g (0 : Fin 1)) (fun b hb => ?_) ?_).trans ?_
    · match b with
      | ⟨0, _⟩ => show r.val = (r.val * 20 + (16 + g.val)) / 20; have := g.isLt; omega
      | ⟨1, _⟩ => exact absurd rfl hb
      | ⟨2, _⟩ => rfl
    · show g.val + 16 = (r.val * 20 + (16 + g.val)) / 1 % 20
      have := g.isLt; omega
    · simp only [val_main_v46_apply, val_main_v42_apply, val_main_v45_apply, val_main_v43_apply, val_main_v44_apply,
        val_main_v41_apply, val_main_v40_apply, val_main_cst_apply, val_main_cst_8_apply, val_main_cst_9_apply,
        Ideal.hostDivf_def, Ideal.addf_def, Ideal.mulf_def, Ideal.ofBits_def]
      refine congrArg₂ Ideal.div ?_ (congrArg₂ (· + ·) ?_ rfl)
      · rw [Ideal.ofBits_zero_f32, zero_add]
        refine Finset.sum_congr rfl fun l _ => ?_
        unfold maskedCols
        refine congrArg₂ (· * ·) (congrArg _ (funext fun a => Fin.ext ?_)) (congrArg _ (funext fun a => Fin.ext ?_))
        · match a with
          | ⟨0, _⟩ => rfl
          | ⟨1, _⟩ => show g.val = (50 * g.val + l.val) / 50; have := l.isLt; omega
          | ⟨2, _⟩ => show l.val = (50 * g.val + l.val) % 50; have := l.isLt; omega
          | ⟨3, _⟩ => rfl
        · match a with
          | ⟨0, _⟩ => rfl
          | ⟨1, _⟩ => show g.val = (50 * g.val + l.val) / 50; have := l.isLt; omega
          | ⟨2, _⟩ => show l.val = (50 * g.val + l.val) % 50; have := l.isLt; omega
      · unfold counts
        refine congrArg (_ + ·) (Finset.sum_congr rfl fun l _ => congrArg _ (funext fun a => Fin.ext ?_))
        match a with
        | ⟨0, _⟩ => rfl
        | ⟨1, _⟩ => rfl
        | ⟨2, _⟩ => rfl

end Cert.ReferenceIdeal.RefValue

end
-- ==== Proof.lean ====
/-
  A pooled embedding lookup: sixteen single-id embeddings copied, and four masked means over fifty positions each.

  Both programs gather the same embeddings from the same tables with the same (wrapped) indices and build the same
  mask; they differ only in where the masked sums and the division are computed and in how the arrays are laid out.
  The kernel's host operations merge the `[4, 50]` positions into `200` columns and sum the mask, and the kernel
  itself, on eight blocks of `2048` rows, sums each run of fifty columns, divides by the count plus the constant and
  sets the sixteen embeddings and the four quotients side by side. The reference keeps a trailing unit axis, sums over
  the axis of fifty positions, divides, concatenates along the second axis and drops the unit axis.

  Index by index both results are `Pool.result` (Proof/Spec.lean) of the gathered embeddings and the mask:
    * the kernel: its body is `Pool.pooled` over a block (Proof/Payload.lean), the blocks tile the rows
      (Proof/Blocks.lean), and the three operands are the gathered arrays re-laid (Proof/Windows.lean);
    * the reference: Proof/RefValue.lean.
  The two sides' sums run over the same fifty terms in the same order, so no law of the extended reals beyond
  `0 + x = x` is used and the finiteness of the inputs is never needed. Idealizing the kernel rewrote none of its
  operations, so the idealized kernel is the kernel's own text and `preserves` has no conjunct.
-/
import proofs.«108233_j37795712205301_2_alg».proof.Defs
import proofs.«108233_j37795712205301_2_alg».proof.Proof.Gen.Kernel
import proofs.«108233_j37795712205301_2_alg».proof.Proof.Gen.Kernel.Skeleton
import proofs.«108233_j37795712205301_2_alg».proof.Proof.Gen.Kernel.Launch
import proofs.«108233_j37795712205301_2_alg».proof.Proof.Gen.Kernel.Points
import proofs.«108233_j37795712205301_2_alg».proof.Proof.Gen.Kernel.Frame
import proofs.«108233_j37795712205301_2_alg».proof.Proof.Gen.KernelIdeal
import proofs.«108233_j37795712205301_2_alg».proof.Proof.Gen.KernelIdeal.Skeleton
import proofs.«108233_j37795712205301_2_alg».proof.Proof.Gen.KernelIdeal.Launch
import proofs.«108233_j37795712205301_2_alg».proof.Proof.Gen.KernelIdeal.Points
import proofs.«108233_j37795712205301_2_alg».proof.Proof.Gen.KernelIdeal.Frame
import proofs.«108233_j37795712205301_2_alg».proof.Proof.Gen.ReferenceIdeal
import proofs.«108233_j37795712205301_2_alg».proof.Proof.Gen.Pre_finite_inputs
import proofs.«108233_j37795712205301_2_alg».proof.Proof.Gen.KernelIdeal.Value
import proofs.«108233_j37795712205301_2_alg».proof.Proof.Gen.ReferenceIdeal.Run
import proofs.«108233_j37795712205301_2_alg».proof.Proof.Gen.ReferenceIdeal.Read
import proofs.«108233_j37795712205301_2_alg».proof.Proof.Blocks
import proofs.«108233_j37795712205301_2_alg».proof.Proof.Windows
import proofs.«108233_j37795712205301_2_alg».proof.Proof.RefValue
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Idealizing the kernel rewrote none of its operations: there is nothing to preserve. -/
theorem preserves : Cert.preserves_Kernel_KernelIdeal := trivial

/-- Both programs end with `Pool.result` of the gathered embeddings and the mask of the common arguments. -/
theorem algebraic : Cert.algebraic_KernelIdeal_ReferenceIdeal := by
  intro m ρ m' ρ' _ hagree
  refine ⟨fun c => Cert.Pool.result (Cert.KernelIdeal.Windows.gatherA m c) (Cert.KernelIdeal.Windows.gatherE m c)
    (Cert.KernelIdeal.Windows.maskM m c), ?_, ?_⟩
  · refine (θ_run Cert.KernelIdeal.defs _ _).mono (fun r h c => ⟨(h c).1.trans ?_, (h c).2⟩)
      (Cert.KernelIdeal.Blocks.run m ρ)
    show Cert.Pool.pooled (Cert.KernelIdeal.Gen.V m c Cert.KernelIdeal.main_v18)
      (Cert.KernelIdeal.Gen.V m c Cert.KernelIdeal.main_v43) (Cert.KernelIdeal.Gen.V m c Cert.KernelIdeal.main_v44) = _
    rw [Cert.KernelIdeal.Windows.sparse_eq, Cert.KernelIdeal.Windows.masked_eq, Cert.KernelIdeal.Windows.counts_eq]
    rfl
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v48_eq, Cert.ReferenceIdeal.RefValue.result_eq, (hagree c).1,
      (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
